-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x1408 : Shape := ⟨3, ![8, 2048, 1408]⟩
abbrev S8x1408x2048 : Shape := ⟨3, ![8, 1408, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn_part1 {F : FTy → Type} [FloatOps F] (main_v13 : IVec S_ 1) (main_v16 : IVec S8x1408x2048 1) : IVec S_ 1 :=
  let main_c_5 : IVec S_ 1 := constantI S_ 1 1#1
  let main_v17 : IVec S_ 1 := (fun x v => Host.reduce IntOp.andi x v reducesTo_S8x1408x2048_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x1408 .f32) (main_arg2 : FVec F S8x2048x1408 .f32) (main_arg3 : FVec F S8x1408x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x1408 .f32 := Host.absf main_arg1
  let main_cst_0 : FVec F S_ .f32 := constant S_ .f32 0x7F800000#32
  let main_v5 : FVec F S8x2048x1408 .f32 := broadcastInDim S8x2048x1408 ![] bcast_S_S8x2048x1408 main_cst_0
  let main_v6 : IVec S8x2048x1408 1 := cmpf .olt main_v4 main_v5
  let main_c_1 : IVec S_ 1 := constantI S_ 1 1#1
  let main_v7 : IVec S_ 1 := (fun x v => Host.reduce IntOp.andi x v reducesTo_S8x2048x1408_S_d0_1_2 h_S_) main_v6 main_c_1
  let main_v8 : IVec S_ 1 := andi main_v3 main_v7
  let main_v9 : FVec F S8x2048x1408 .f32 := Host.absf main_arg2
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  let main_v14 : FVec F S8x1408x2048 .f32 := Host.absf main_arg3
  let main_cst_4 : FVec F S_ .f32 := constant S_ .f32 0x7F800000#32
  let main_v15 : FVec F S8x1408x2048 .f32 := broadcastInDim S8x1408x2048 ![] bcast_S_S8x1408x2048 main_cst_4
  let main_v16 : IVec S8x1408x2048 1 := cmpf .olt main_v14 main_v15
  fn_part1 (F := F) main_v13 main_v16
-- ==== Kernel.lean ====
abbrev S8x2048x2048 : Shape := ⟨3, ![8, 2048, 2048]⟩
abbrev S8x2048x1408 : Shape := ⟨3, ![8, 2048, 1408]⟩
abbrev S8x1408x2048 : Shape := ⟨3, ![8, 1408, 2048]⟩
abbrev S1x128x2048 : Shape := ⟨3, ![1, 128, 2048]⟩
abbrev S1x2048x1408 : Shape := ⟨3, ![1, 2048, 1408]⟩
abbrev S1x1408x2048 : Shape := ⟨3, ![1, 1408, 2048]⟩
abbrev S128x2048 : Shape := ⟨2, ![128, 2048]⟩
abbrev S2048x1408 : Shape := ⟨2, ![2048, 1408]⟩
abbrev S1408x2048 : Shape := ⟨2, ![1408, 2048]⟩
abbrev S128x1408 : Shape := ⟨2, ![128, 1408]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1408, .f32⟩
  | .hbm, ⟨2, _⟩ => ⟨S8x2048x1408, .f32⟩
  | .hbm, ⟨3, _⟩ => ⟨S8x1408x2048, .f32⟩
  | .hbm, ⟨4, _⟩ => ⟨S8x2048x1408, .bf16⟩
  | .hbm, ⟨5, _⟩ => ⟨S8x2048x1408, .bf16⟩
  | .hbm, ⟨6, _⟩ => ⟨S8x1408x2048, .bf16⟩
  | .hbm, ⟨7, _⟩ => ⟨S8x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x1408x2048, .bf16⟩
  | .local _ .vmem, ⟨7, _⟩ => ⟨S1x1408x2048, .bf16⟩
  | .local _ .vmem, ⟨8, _⟩ => ⟨S1x128x2048, .f32⟩
  | .local _ .vmem, ⟨9, _⟩ => ⟨S1x128x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  shapeCasts_S128x2048_S1x128x2048 : S128x2048.ShapeCasts S1x128x2048
  dot_S128x2048_S2048x1408_S128x1408_1_0_0_1_n_n_wf : DotDims.WF S128x2048 S2048x1408 S128x1408 [1] [0] [0] [1] [] []
  dot_S128x1408_S1408x2048_S128x2048_1_0_0_1_n_n_wf : DotDims.WF S128x1408 S1408x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x2048x2048.size a
  hwx0_0 : ∀ i : grid0.Coords, EltTy.bits .f32 = 32 ∨ (Rect.block (s := S8x2048x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1408.size a ≤ S8x2048x1408.size a
  hwx0_1 : ∀ i : grid0.Coords, EltTy.bits .bf16 = 32 ∨ (Rect.block (s := S8x2048x1408) S1x2048x1408.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S8x2048x1408.size a
  hwx0_2 : ∀ i : grid0.Coords, EltTy.bits .bf16 = 32 ∨ (Rect.block (s := S8x2048x1408) S1x2048x1408.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1408x2048.size a ≤ S8x1408x2048.size a
  hwx0_3 : ∀ i : grid0.Coords, EltTy.bits .bf16 = 32 ∨ (Rect.block (s := S8x1408x2048) S1x1408x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S8x2048x2048.size a
  hwx0_4 : ∀ i : grid0.Coords, EltTy.bits .f32 = 32 ∨ (Rect.block (s := S8x2048x2048) S1x128x2048.size (cc0_transform_4 i) (hinb0_4 i)).WholeWords (EltTy.packing .f32)

variable [Facts₀]

def dot_S128x2048_S2048x1408_S128x1408_1_0_0_1_n_n : DotDims S128x2048 S2048x1408 S128x1408 where
  lhsContracting := [1]
  rhsContracting := [0]
  lhsNonContracting := [0]
  rhsNonContracting := [1]
  lhsBatch := []
  rhsBatch := []
  wf := dot_S128x2048_S2048x1408_S128x1408_1_0_0_1_n_n_wf
def dot_S128x1408_S1408x2048_S128x2048_1_0_0_1_n_n : DotDims S128x1408 S1408x2048 S128x2048 where
  lhsContracting := [1]
  rhsContracting := [0]
  lhsNonContracting := [0]
  rhsNonContracting := [1]
  lhsBatch := []
  rhsBatch := []
  wf := dot_S128x1408_S1408x2048_S128x2048_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1408x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x2048x1408 : Shape := ⟨3, ![8, 2048, 1408]⟩
abbrev S8x1408x2048 : Shape := ⟨3, ![8, 1408, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1408, .f32⟩
  | .hbm, ⟨2, _⟩ => ⟨S8x2048x1408, .f32⟩
  | .hbm, ⟨3, _⟩ => ⟨S8x1408x2048, .f32⟩
  | .hbm, ⟨4, _⟩ => ⟨S8x2048x1408, .f32⟩
  | .hbm, ⟨5, _⟩ => ⟨S8x2048x1408, .f32⟩
  | .hbm, ⟨6, _⟩ => ⟨S8x2048x1408, .f32⟩
  | .hbm, ⟨7, _⟩ => ⟨S8x2048x1408, .f32⟩
  | .hbm, ⟨8, _⟩ => ⟨S_, .f32⟩
  | .hbm, ⟨9, _⟩ => ⟨S8x2048x1408, .f32⟩
  | .hbm, ⟨10, _⟩ => ⟨S8x2048x1408, .f32⟩
  | .hbm, ⟨11, _⟩ => ⟨S_, .f32⟩
  | .hbm, ⟨12, _⟩ => ⟨S8x2048x1408, .f32⟩
  | .hbm, ⟨13, _⟩ => ⟨S8x2048x1408, .f32⟩
  | .hbm, ⟨14, _⟩ => ⟨S8x2048x1408, .f32⟩
  | .hbm, ⟨15, _⟩ => ⟨S8x2048x1408, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x1408 : S_.BroadcastsInDim S8x2048x1408 (![] : Fin 0 → Fin S8x2048x1408.rank)
  dot_S8x2048x2048_S8x2048x1408_S8x2048x1408_2_1_1_2_0_0_wf : DotDims.WF S8x2048x2048 S8x2048x1408 S8x2048x1408 [2] [1] [1] [2] [0] [0]
  dot_S8x2048x1408_S8x1408x2048_S8x2048x2048_2_1_1_2_0_0_wf : DotDims.WF S8x2048x1408 S8x1408x2048 S8x2048x2048 [2] [1] [1] [2] [0] [0]

variable [Facts₀]

def dot_S8x2048x2048_S8x2048x1408_S8x2048x1408_2_1_1_2_0_0 : DotDims S8x2048x2048 S8x2048x1408 S8x2048x1408 where
  lhsContracting := [2]
  rhsContracting := [1]
  lhsNonContracting := [1]
  rhsNonContracting := [2]
  lhsBatch := [0]
  rhsBatch := [0]
  wf := dot_S8x2048x2048_S8x2048x1408_S8x2048x1408_2_1_1_2_0_0_wf
def dot_S8x2048x1408_S8x1408x2048_S8x2048x2048_2_1_1_2_0_0 : DotDims S8x2048x1408 S8x1408x2048 S8x2048x2048 where
  lhsContracting := [2]
  rhsContracting := [1]
  lhsNonContracting := [1]
  rhsNonContracting := [2]
  lhsBatch := [0]
  rhsBatch := [0]
  wf := dot_S8x2048x1408_S8x1408x2048_S8x2048x2048_2_1_1_2_0_0_wf

class Facts : Prop extends Facts₀ where

variable [Facts]
-- ==== Proof.SwiGLU.lean ====
/-
  The function both programs compute, over the extended reals: a gated feed-forward layer applied expert by expert.

  For expert `e`, token `t` and hidden unit `h` let
      g(e,t,h) = Σ_k x(e,t,k) · W_gate(e,k,h)        u(e,t,h) = Σ_k x(e,t,k) · W_down(e,k,h)      (k over the 2048 input features)
  and let the hidden activation be  a(e,t,h) = (g · σ(g)) · u  with  σ(z) = 1 / (1 + exp(−z))  the logistic function
  (so g · σ(g) is the "silu" of g). The layer's output at (e,t,d) is
      out(e,t,d) = Σ_h a(e,t,h) · W_up(e,h,d)                                                      (h over the 1408 hidden units).
  Every sum is a finite sum of extended reals taken in the order of its index, and the products are associated exactly as
  written, so no law of the extended reals beyond the definitions is needed to recognise this function in either program.
-/
import Idealize.ShloMosaic.PureOps.Ideal
import Idealize.ShloMosaic.Lib.ValueIdx

noncomputable section

open scoped BigOperators

namespace Cert.SwiGLU

open Idealize.ShloMosaic Idealize.ShloMosaic.ValueIdx

/-- Activations, and the layer's output: 8 experts × 2048 tokens × 2048 features. -/
abbrev Acts : Shape := ⟨3, ![8, 2048, 2048]⟩
/-- The gate and down weights: 8 experts × 2048 input features × 1408 hidden units. -/
abbrev WIn : Shape := ⟨3, ![8, 2048, 1408]⟩
/-- The up weights: 8 experts × 1408 hidden units × 2048 output features. -/
abbrev WOut : Shape := ⟨3, ![8, 1408, 2048]⟩

/-- One entry of an expert's input projection: the token's row of `x` against column `h` of the expert's weight matrix. -/
def proj (x : Acts.Idx → EReal) (w : WIn.Idx → EReal) (e : Fin 8) (t : Fin 2048) (h : Fin 1408) : EReal :=
  ∑ k : Fin 2048, x (ix3 e t k) * w (ix3 e k h)

/-- The hidden activation: the gate projection times its logistic, times the down projection. -/
def hidden (x : Acts.Idx → EReal) (wg wd : WIn.Idx → EReal) (e : Fin 8) (t : Fin 2048) (h : Fin 1408) : EReal :=
  proj x wg e t h * Ideal.logistic (proj x wg e t h) * proj x wd e t h

/-- The layer: the hidden activations of the token against column `d` of the expert's up weights. -/
def layer (x : Acts.Idx → EReal) (wg wd : WIn.Idx → EReal) (wu : WOut.Idx → EReal) : Acts.Idx → EReal := fun i =>
  ∑ h : Fin 1408, hidden x wg wd (i 0) (i 1) h * wu (ix3 (i 0) h (i 2))

end Cert.SwiGLU

end
-- ==== Proof.RefLayer.lean ====
/-
  The reference program computes the gated feed-forward layer of Proof/SwiGLU.lean.

  Its three batched contractions each contract ONE axis with the expert as batch axis, so the entry at (e,t,h) of a
  projection is the sum over the input feature k of x(e,t,k)·W(e,k,h), and the entry at (e,t,d) of the result the sum over
  the hidden unit h of a(e,t,h)·W_up(e,h,d). Between them the reference spells the logistic function out as
  1 / (1 + exp(−g)) with the float literal 1.0, which over the extended reals is the number one: that quotient is the
  logistic function by definition.
-/
import proofs.«113975_j64372969833101_2_alg».proof.Proof.Gen.ReferenceIdeal.Read
import proofs.«113975_j64372969833101_2_alg».proof.Proof.SwiGLU
import Idealize.ShloMosaic.Lib.IdealHost

noncomputable section

open scoped BigOperators

namespace Cert.ReferenceIdeal.Layer

open Cert.ReferenceIdeal Cert.ReferenceIdeal.Read Idealize.ShloMosaic Idealize.ShloMosaic.ValueIdx Cert.SwiGLU

/-! ## Which entries each contraction multiplies -/

/-- The gate projection at (e,t,h) reads `x` along the token's row … -/
theorem lidx_gate (i : S8x2048x1408.Idx) (k : Fin 2048) : lidx_main_v0 i k = ix3 (i 0) (i 1) k :=
  funext fun a => Fin.ext (by match a with | ⟨0, _⟩ => rfl | ⟨1, _⟩ => rfl | ⟨2, _⟩ => rfl)
/-- … and the expert's weights down column `h`. -/
theorem ridx_gate (i : S8x2048x1408.Idx) (k : Fin 2048) : ridx_main_v0 i k = ix3 (i 0) k (i 2) :=
  funext fun a => Fin.ext (by match a with | ⟨0, _⟩ => rfl | ⟨1, _⟩ => rfl | ⟨2, _⟩ => rfl)
/-- The down projection reads the same row of `x` … -/
theorem lidx_down (i : S8x2048x1408.Idx) (k : Fin 2048) : lidx_main_v1 i k = ix3 (i 0) (i 1) k :=
  funext fun a => Fin.ext (by match a with | ⟨0, _⟩ => rfl | ⟨1, _⟩ => rfl | ⟨2, _⟩ => rfl)
/-- … and column `h` of its own weights. -/
theorem ridx_down (i : S8x2048x1408.Idx) (k : Fin 2048) : ridx_main_v1 i k = ix3 (i 0) k (i 2) :=
  funext fun a => Fin.ext (by match a with | ⟨0, _⟩ => rfl | ⟨1, _⟩ => rfl | ⟨2, _⟩ => rfl)
/-- The output at (e,t,d) reads the token's row of hidden activations … -/
theorem lidx_up (i : S8x2048x2048.Idx) (h : Fin 1408) : lidx_main_v4 i h = ix3 (i 0) (i 1) h :=
  funext fun a => Fin.ext (by match a with | ⟨0, _⟩ => rfl | ⟨1, _⟩ => rfl | ⟨2, _⟩ => rfl)
/-- … and column `d` of the expert's up weights. -/
theorem ridx_up (i : S8x2048x2048.Idx) (h : Fin 1408) : ridx_main_v4 i h = ix3 (i 0) h (i 2) :=
  funext fun a => Fin.ext (by match a with | ⟨0, _⟩ => rfl | ⟨1, _⟩ => rfl | ⟨2, _⟩ => rfl)

/-! ## The stages -/

/-- The first contraction is the gate projection. -/
theorem gate_apply (x : (⟨S8x2048x2048, .f32⟩ : BufTy).Contents (Elt Ideal)) (w : (⟨S8x2048x1408, .f32⟩ : BufTy).Contents (Elt Ideal))
    (i : S8x2048x1408.Idx) : val_main_v0 (F := Ideal) x w i = proj x w (i 0) (i 1) (i 2) := by
  rw [val_main_v0_apply]
  exact Finset.sum_congr rfl fun k _ => by rw [lidx_gate, ridx_gate]; rfl

/-- The second is the down projection. -/
theorem down_apply (x : (⟨S8x2048x2048, .f32⟩ : BufTy).Contents (Elt Ideal)) (w : (⟨S8x2048x1408, .f32⟩ : BufTy).Contents (Elt Ideal))
    (i : S8x2048x1408.Idx) : val_main_v1 (F := Ideal) x w i = proj x w (i 0) (i 1) (i 2) := by
  rw [val_main_v1_apply]
  exact Finset.sum_congr rfl fun k _ => by rw [lidx_down, ridx_down]; rfl

/-- The reference's silu: the gate projection times 1 / (1 + exp(−g)), which is g · σ(g). -/
theorem silu_apply (x : (⟨S8x2048x2048, .f32⟩ : BufTy).Contents (Elt Ideal)) (w : (⟨S8x2048x1408, .f32⟩ : BufTy).Contents (Elt Ideal))
    (i : S8x2048x1408.Idx) :
    val_main_v2 (F := Ideal) x w i = val_main_v0 (F := Ideal) x w i * Ideal.logistic (val_main_v0 (F := Ideal) x w i) := by
  show val_main_v0 (F := Ideal) x w i * Ideal.div (Ideal.ofBits .f32 0x3F800000#32)
      (Ideal.ofBits .f32 0x3F800000#32 + Ideal.exp (-(val_main_v0 (F := Ideal) x w i))) = _
  rw [Ideal.ofBits_one_f32]
  rfl

/-! ## The whole reference -/

/-- The reference's result is the layer of its four arguments. -/
theorem result_eq (x0 : (⟨S8x2048x2048, .f32⟩ : BufTy).Contents (Elt Ideal)) (x1 x2 : (⟨S8x2048x1408, .f32⟩ : BufTy).Contents (Elt Ideal))
    (x3 : (⟨S8x1408x2048, .f32⟩ : BufTy).Contents (Elt Ideal)) :
    val_main_v4 (F := Ideal) x0 x1 x2 x3 = layer x0 x1 x2 x3 := by
  funext i
  rw [val_main_v4_apply]
  unfold layer
  refine Finset.sum_congr rfl fun h _ => ?_
  rw [val_main_v3_apply, silu_apply, gate_apply, down_apply, lidx_up, ridx_up]
  rfl

end Cert.ReferenceIdeal.Layer

end
-- ==== Proof.Tile.lean ====
/-
  What the kernel body computes on one tile: 128 tokens of one expert.

  The body is handed a [1,128,2048] block of activations and the expert's three weight matrices as [1,·,·] blocks, drops the
  leading unit axes, and forms three matrix products into zero accumulators with a pointwise step in between. Over the
  extended reals a change of float format is the identity and a product into a zero accumulator is the plain sum over the
  contracted axis, so the entry it stores at (·, r, d) is
      Σ_h ( g(r,h) · σ(g(r,h)) · u(r,h) ) · W_up(0,h,d),   g(r,h) = Σ_k x(0,r,k) · W_gate(0,k,h),   u(r,h) = Σ_k x(0,r,k) · W_down(0,k,h),
  the sums in index order: the layer of Proof/SwiGLU.lean restricted to the tile.
-/
import proofs.«113975_j64372969833101_2_alg».proof.Proof.Gen.KernelIdeal.Skeleton
import proofs.«113975_j64372969833101_2_alg».proof.Proof.SwiGLU
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The dimension numbers of the two input projections: [128,2048] × [2048,1408], contracting the 2048 input features. -/
abbrev DIn := dot_S128x2048_S2048x1408_S128x1408_1_0_0_1_n_n
/-- The dimension numbers of the output projection: [128,1408] × [1408,2048], contracting the 1408 hidden units. -/
abbrev DOut := dot_S128x1408_S1408x2048_S128x2048_1_0_0_1_n_n

/-! ## A plain matrix product into a zero accumulator, read at an entry -/

/-- The left operand is read along row `r` of the result entry … -/
theorem in_lhs_row (j : S128x1408.Idx) (q : DIn.contr.Idx) : (DIn.lhsIdx j q 0).val = (j 0).val := by
  unfold DotDims.lhsIdx
  rw [dif_neg (show ¬(0 : Fin S128x2048.rank) ∈ DIn.lhsBatch by decide), dif_pos (show (0 : Fin S128x2048.rank) ∈ DIn.lhsNonContracting by decide)]
  rfl
/-- … and the right operand down its column. -/
theorem in_rhs_col (j : S128x1408.Idx) (q : DIn.contr.Idx) : (DIn.rhsIdx j q 1).val = (j 1).val := by
  unfold DotDims.rhsIdx
  rw [dif_neg (show ¬(1 : Fin S2048x1408.rank) ∈ DIn.rhsBatch by decide), dif_pos (show (1 : Fin S2048x1408.rank) ∈ DIn.rhsNonContracting by decide)]
  rfl

/-- An input projection of the tile at (r, h): the sum over the input feature `k` of a(r,k) · b(k,h). -/
theorem in_dot_apply (a : FVec Ideal S128x2048 .bf16) (b : FVec Ideal S2048x1408 .bf16) (r : Fin 128) (h : Fin 1408) :
    matmul DIn none a b (constant (F := Ideal) S128x1408 .f32 0x00000000#32) (ix2 r h) = ∑ k : Fin 2048, a (ix2 r k) * b (ix2 k h) := by
  simp only [matmul]
  rw [Ideal.matmul_constant_zero_apply, ← Equiv.sum_comp (contrEquiv1 DIn 2048 rfl rfl).symm]
  refine Finset.sum_congr rfl fun k _ => ?_
  have hk := contrEquiv1_symm_val DIn 2048 rfl rfl k
  have el : DIn.lhsIdx (ix2 r h) ((contrEquiv1 DIn 2048 rfl rfl).symm k) = ix2 r k := funext fun c => Fin.ext (by
    match c with
    | ⟨0, _⟩ => exact in_lhs_row _ _
    | ⟨1, _⟩ => exact (DIn.lhsIdx_val_of_single rfl _ _).trans hk)
  have er : DIn.rhsIdx (ix2 r h) ((contrEquiv1 DIn 2048 rfl rfl).symm k) = ix2 k h := funext fun c => Fin.ext (by
    match c with
    | ⟨0, _⟩ => exact (DIn.rhsIdx_val_of_single rfl _ _).trans hk
    | ⟨1, _⟩ => exact in_rhs_col _ _)
  rw [el, er]

theorem out_lhs_row (j : S128x2048.Idx) (q : DOut.contr.Idx) : (DOut.lhsIdx j q 0).val = (j 0).val := by
  unfold DotDims.lhsIdx
  rw [dif_neg (show ¬(0 : Fin S128x1408.rank) ∈ DOut.lhsBatch by decide), dif_pos (show (0 : Fin S128x1408.rank) ∈ DOut.lhsNonContracting by decide)]
  rfl
theorem out_rhs_col (j : S128x2048.Idx) (q : DOut.contr.Idx) : (DOut.rhsIdx j q 1).val = (j 1).val := by
  unfold DotDims.rhsIdx
  rw [dif_neg (show ¬(1 : Fin S1408x2048.rank) ∈ DOut.rhsBatch by decide), dif_pos (show (1 : Fin S1408x2048.rank) ∈ DOut.rhsNonContracting by decide)]
  rfl

/-- The output projection of the tile at (r, d): the sum over the hidden unit `h` of a(r,h) · b(h,d). -/
theorem out_dot_apply (a : FVec Ideal S128x1408 .bf16) (b : FVec Ideal S1408x2048 .bf16) (r : Fin 128) (d : Fin 2048) :
    matmul DOut none a b (constant (F := Ideal) S128x2048 .f32 0x00000000#32) (ix2 r d) = ∑ h : Fin 1408, a (ix2 r h) * b (ix2 h d) := by
  simp only [matmul]
  rw [Ideal.matmul_constant_zero_apply, ← Equiv.sum_comp (contrEquiv1 DOut 1408 rfl rfl).symm]
  refine Finset.sum_congr rfl fun k _ => ?_
  have hk := contrEquiv1_symm_val DOut 1408 rfl rfl k
  have el : DOut.lhsIdx (ix2 r d) ((contrEquiv1 DOut 1408 rfl rfl).symm k) = ix2 r k := funext fun c => Fin.ext (by
    match c with
    | ⟨0, _⟩ => exact out_lhs_row _ _
    | ⟨1, _⟩ => exact (DOut.lhsIdx_val_of_single rfl _ _).trans hk)
  have er : DOut.rhsIdx (ix2 r d) ((contrEquiv1 DOut 1408 rfl rfl).symm k) = ix2 k d := funext fun c => Fin.ext (by
    match c with
    | ⟨0, _⟩ => exact (DOut.rhsIdx_val_of_single rfl _ _).trans hk
    | ⟨1, _⟩ => exact out_rhs_col _ _)
  rw [el, er]

/-! ## The tile -/

/-- An input projection of the tile: row `r` of the activations' block against column `h` of a weight block. -/
def proj (x : Vec Ideal S1x128x2048 .f32) (w : Vec Ideal S1x2048x1408 .bf16) (r : Fin 128) (h : Fin 1408) : EReal :=
  ∑ k : Fin 2048, x (ix3 (0 : Fin 1) r k) * w (ix3 (0 : Fin 1) k h)

/-- The body's projection of the activations' block (unit axis dropped, format changed) by a weight block (unit axis dropped)
    into the zero accumulator is that sum. -/
theorem proj_apply (x : Vec Ideal S1x128x2048 .f32) (w : Vec Ideal S1x2048x1408 .bf16) (r : Fin 128) (h : Fin 1408) :
    matmul DIn none (truncf .bf16 (shapeCast S128x2048 x shapeCasts_S1x128x2048_S128x2048 : FVec Ideal S128x2048 .f32) bitsLt_bf16_f32 : FVec Ideal S128x2048 .bf16)
        (shapeCast S2048x1408 w shapeCasts_S1x2048x1408_S2048x1408 : FVec Ideal S2048x1408 .bf16) (constant (F := Ideal) S128x1408 .f32 0x00000000#32) (ix2 r h)
      = proj x w r h := by
  refine (in_dot_apply _ _ r h).trans ?_
  refine Finset.sum_congr rfl fun k _ => ?_
  exact congrArg₂ (· * ·) (shapeCast_1ab_ab_apply x _ r k) (shapeCast_1ab_ab_apply w _ k h)

/-- The pointwise step between the products, at an entry: the gate times its logistic, times the down projection (the
    change of format after it is the identity). -/
theorem act_apply (G U : FVec Ideal S128x1408 .f32) (j : S128x1408.Idx) :
    (truncf .bf16 (mulf (mulf G (logistic G)) U) bitsLt_bf16_f32 : FVec Ideal S128x1408 .bf16) j = G j * Ideal.logistic (G j) * U j := rfl

/-- THE TILE'S VALUE: what the body stores at (·, r, d). -/
theorem pay_apply (x : Vec Ideal S1x128x2048 .f32) (wg wd : Vec Ideal S1x2048x1408 .bf16) (wu : Vec Ideal S1x1408x2048 .bf16)
    (z : Fin 1) (r : Fin 128) (d : Fin 2048) :
    k0_pay1 (F := Ideal) x wg wd wu (ix3 z r d)
      = ∑ h : Fin 1408, proj x wg r h * Ideal.logistic (proj x wg r h) * proj x wd r h * wu (ix3 (0 : Fin 1) h d) := by
  unfold k0_pay1
  refine (shapeCast_ab_1ab_apply _ _ z r d).trans ?_
  refine (out_dot_apply _ _ r d).trans ?_
  refine Finset.sum_congr rfl fun h _ => ?_
  refine (congrArg₂ (· * ·) (act_apply _ _ (ix2 r h)) (shapeCast_1ab_ab_apply wu _ h d)).trans ?_
  rw [proj_apply, proj_apply]

/-! ## The tile inside the layer -/

/-- If the activations' block holds the rows `row r` of expert `e`'s activations and the three weight blocks hold expert
    `e`'s matrices, then what the body stores at (·, r, d) is the layer at (e, row r, d): the same sums, term by term. -/
theorem pay_layer (X : SwiGLU.Acts.Idx → EReal) (WG WD : SwiGLU.WIn.Idx → EReal) (WU : SwiGLU.WOut.Idx → EReal)
    (x : Vec Ideal S1x128x2048 .f32) (wg wd : Vec Ideal S1x2048x1408 .bf16) (wu : Vec Ideal S1x1408x2048 .bf16)
    (e : Fin 8) (row : Fin 128 → Fin 2048)
    (hx : ∀ (r : Fin 128) (k : Fin 2048), x (ix3 (0 : Fin 1) r k) = X (ix3 e (row r) k))
    (hg : ∀ (k : Fin 2048) (h : Fin 1408), wg (ix3 (0 : Fin 1) k h) = WG (ix3 e k h))
    (hd : ∀ (k : Fin 2048) (h : Fin 1408), wd (ix3 (0 : Fin 1) k h) = WD (ix3 e k h))
    (hu : ∀ (h : Fin 1408) (d : Fin 2048), wu (ix3 (0 : Fin 1) h d) = WU (ix3 e h d))
    (z : Fin 1) (r : Fin 128) (d : Fin 2048) :
    k0_pay1 (F := Ideal) x wg wd wu (ix3 z r d) = SwiGLU.layer X WG WD WU (ix3 e (row r) d) := by
  rw [pay_apply]
  have pg : ∀ h, proj x wg r h = SwiGLU.proj X WG e (row r) h := fun h =>
    Finset.sum_congr rfl fun k _ => by rw [hx, hg]
  have pd : ∀ h, proj x wd r h = SwiGLU.proj X WD e (row r) h := fun h =>
    Finset.sum_congr rfl fun k _ => by rw [hx, hd]
  refine Finset.sum_congr rfl fun h _ => ?_
  rw [pg, pd, hu]
  rfl

end Cert.KernelIdeal.Tile

end
-- ==== Proof.Whole.lean ====
/-
  From tiles to the whole result.

  The grid has 8 × 16 points, the second coordinate moving fastest: point t works on expert e = t / 16 and on the token
  tile b = t % 16. There the activations' block is rows 128·b … 128·b + 127 of expert e's activations, the three weight
  blocks are expert e's whole matrices (on the way to the kernel they only changed float format, which over the extended
  reals changes nothing), and the block written back is rows 128·b … 128·b + 127 of expert e's result. By Proof/Tile.lean
  what is written there is the layer of Proof/SwiGLU.lean at those rows. Every (e, token) lies in exactly one such block
  — that of point 16·e + token / 128 — so after the run the result array is the layer of the four arguments everywhere.
-/
import proofs.«113975_j64372969833101_2_alg».proof.Proof.Gen.KernelIdeal.Value
import proofs.«113975_j64372969833101_2_alg».proof.Proof.Tile
import proofs.«113975_j64372969833101_2_alg».proof.Proof.SwiGLU
import Idealize.ShloMosaic.Lib.Pipeline.Value
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## Which block each window holds at a point -/

/-- The block indices at point `t`, decided over the 128 points: the activations and the result move with (expert, tile),
    the weights with the expert alone. -/
theorem idx_facts : ∀ t : Fin cfg0.N,
    win0_4.index t (0 : Fin 3) = t.val / 16 ∧ win0_4.index t (1 : Fin 3) = t.val % 16 ∧ win0_4.index t (2 : Fin 3) = 0
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-! ## The weights as the kernel finds them -/

/-- The gate weights the kernel is launched on are the argument's: the host only changed their float format. -/
theorem V_gate (c : Dev nD) :
    (V m c main_v0 : S8x2048x1408.Idx → EReal) = (m ((c : Thread nD τ).loc main_arg1) : S8x2048x1408.Idx → EReal) := by
  dsimp only [V, hostOps0]; after_results; rfl
/-- The down weights likewise. -/
theorem V_down (c : Dev nD) :
    (V m c main_v1 : S8x2048x1408.Idx → EReal) = (m ((c : Thread nD τ).loc main_arg2) : S8x2048x1408.Idx → EReal) := by
  dsimp only [V, hostOps0]; after_results; rfl
/-- The up weights likewise. -/
theorem V_up (c : Dev nD) :
    (V m c main_v2 : S8x1408x2048.Idx → EReal) = (m ((c : Thread nD τ).loc main_arg3) : S8x1408x2048.Idx → EReal) := by
  dsimp only [V, hostOps0]; after_results; rfl

/-! ## The input blocks at a point, read off the arguments -/

/-- The activations' block at point `t`: row `r` of the block is token 128·(t % 16) + r of expert t / 16. -/
theorem x_blk (c : Dev nD) (t : Fin cfg0.N) (e : Fin 8) (row : Fin 2048) (z : Fin 1) (r : Fin 128) (k : Fin 2048)
    (he : e.val = t.val / 16) (hrow : row.val = t.val % 16 * 128 + r.val) :
    (iblk m c 0 t : Vec Ideal S1x128x2048 .f32) (ix3 z r k)
      = (m ((c : Thread nD τ).loc main_arg0) : S8x2048x2048.Idx → EReal) (ix3 e row k) := by
  obtain ⟨-, -, -, e0, e1, e2, -⟩ := idx_facts t
  unfold iblk
  rw [View.read_apply]
  show V m c main_arg0 _ = _
  rw [V_main_arg0]
  refine congrArg (m ((c : Thread nD τ).loc main_arg0) : S8x2048x2048.Idx → EReal) (funext fun a => Fin.ext ?_)
  have hz1 : z.val = 0 := by omega
  match a with
  | ⟨0, _⟩ => show win0_0.index t (0 : Fin 3) * 1 + 1 * z.val = e.val; omega
  | ⟨1, _⟩ => show win0_0.index t (1 : Fin 3) * 128 + 1 * r.val = row.val; omega
  | ⟨2, _⟩ => show win0_0.index t (2 : Fin 3) * 2048 + 1 * k.val = k.val; omega

/-- The gate weights' block at point `t` is expert t / 16's whole matrix. -/
theorem gate_blk (c : Dev nD) (t : Fin cfg0.N) (e : Fin 8) (z : Fin 1) (k : Fin 2048) (h : Fin 1408) (he : e.val = t.val / 16) :
    (iblk m c 1 t : Vec Ideal S1x2048x1408 .bf16) (ix3 z k h)
      = (m ((c : Thread nD τ).loc main_arg1) : S8x2048x1408.Idx → EReal) (ix3 e k h) := by
  obtain ⟨-, -, -, -, -, -, e0, e1, e2, -⟩ := idx_facts t
  unfold iblk
  rw [View.read_apply]
  show (V m c main_v0 : S8x2048x1408.Idx → EReal) _ = _
  rw [V_gate]
  refine congrArg (m ((c : Thread nD τ).loc main_arg1) : S8x2048x1408.Idx → EReal) (funext fun a => Fin.ext ?_)
  have hz1 : z.val = 0 := by omega
  match a with
  | ⟨0, _⟩ => show win0_1.index t (0 : Fin 3) * 1 + 1 * z.val = e.val; omega
  | ⟨1, _⟩ => show win0_1.index t (1 : Fin 3) * 2048 + 1 * k.val = k.val; omega
  | ⟨2, _⟩ => show win0_1.index t (2 : Fin 3) * 1408 + 1 * h.val = h.val; omega

/-- The down weights' block likewise. -/
theorem down_blk (c : Dev nD) (t : Fin cfg0.N) (e : Fin 8) (z : Fin 1) (k : Fin 2048) (h : Fin 1408) (he : e.val = t.val / 16) :
    (iblk m c 2 t : Vec Ideal S1x2048x1408 .bf16) (ix3 z k h)
      = (m ((c : Thread nD τ).loc main_arg2) : S8x2048x1408.Idx → EReal) (ix3 e k h) := by
  obtain ⟨-, -, -, -, -, -, -, -, -, e0, e1, e2, -⟩ := idx_facts t
  unfold iblk
  rw [View.read_apply]
  show (V m c main_v1 : S8x2048x1408.Idx → EReal) _ = _
  rw [V_down]
  refine congrArg (m ((c : Thread nD τ).loc main_arg2) : S8x2048x1408.Idx → EReal) (funext fun a => Fin.ext ?_)
  have hz1 : z.val = 0 := by omega
  match a with
  | ⟨0, _⟩ => show win0_2.index t (0 : Fin 3) * 1 + 1 * z.val = e.val; omega
  | ⟨1, _⟩ => show win0_2.index t (1 : Fin 3) * 2048 + 1 * k.val = k.val; omega
  | ⟨2, _⟩ => show win0_2.index t (2 : Fin 3) * 1408 + 1 * h.val = h.val; omega

/-- The up weights' block likewise. -/
theorem up_blk (c : Dev nD) (t : Fin cfg0.N) (e : Fin 8) (z : Fin 1) (h : Fin 1408) (d : Fin 2048) (he : e.val = t.val / 16) :
    (iblk m c 3 t : Vec Ideal S1x1408x2048 .bf16) (ix3 z h d)
      = (m ((c : Thread nD τ).loc main_arg3) : S8x1408x2048.Idx → EReal) (ix3 e h d) := by
  obtain ⟨-, -, -, -, -, -, -, -, -, -, -, -, e0, e1, e2⟩ := idx_facts t
  unfold iblk
  rw [View.read_apply]
  show (V m c main_v2 : S8x1408x2048.Idx → EReal) _ = _
  rw [V_up]
  refine congrArg (m ((c : Thread nD τ).loc main_arg3) : S8x1408x2048.Idx → EReal) (funext fun a => Fin.ext ?_)
  have hz1 : z.val = 0 := by omega
  match a with
  | ⟨0, _⟩ => show win0_3.index t (0 : Fin 3) * 1 + 1 * z.val = e.val; omega
  | ⟨1, _⟩ => show win0_3.index t (1 : Fin 3) * 1408 + 1 * h.val = h.val; omega
  | ⟨2, _⟩ => show win0_3.index t (2 : Fin 3) * 2048 + 1 * d.val = d.val; omega

/-! ## What each point writes back, and the array after the run -/

/-- The result: the layer of the four argument arrays. -/
abbrev result (c : Dev nD) : S8x2048x2048.Idx → EReal :=
  SwiGLU.layer (m ((c : Thread nD τ).loc main_arg0)) (m ((c : Thread nD τ).loc main_arg1))
    (m ((c : Thread nD τ).loc main_arg2)) (m ((c : Thread nD τ).loc main_arg3))

/-- WHAT POINT `t` WRITES BACK is block `t` of the layer of the arguments. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1x128x2048) hz, View.ld_unit_zero (S := S1x2048x1408) hz, View.ld_unit_zero (S := S1x1408x2048) hz]
  have hN : cfg0.N = 128 := N_0
  have ht : t.val < cfg0.N := t.isLt
  obtain ⟨o0, o1, o2, -⟩ := idx_facts t
  funext j
  obtain ⟨z, r, d, rfl⟩ : ∃ (z : Fin 1) (r : Fin 128) (d : Fin 2048), j = ix3 z r d := ⟨j 0, j 1, j 2, eq_ix3 j⟩
  have hemb : ((cfg0.win 4).blk t).view.emb (ix3 z r d)
      = ix3 (⟨t.val / 16, by omega⟩ : Fin 8) (⟨t.val % 16 * 128 + r.val, by omega⟩ : Fin 2048) d := funext fun a => Fin.ext (by
    have hz1 : z.val = 0 := by omega
    match a with
    | ⟨0, _⟩ => show win0_4.index t (0 : Fin 3) * 1 + 1 * z.val = t.val / 16; omega
    | ⟨1, _⟩ => show win0_4.index t (1 : Fin 3) * 128 + 1 * r.val = t.val % 16 * 128 + r.val; omega
    | ⟨2, _⟩ => show win0_4.index t (2 : Fin 3) * 2048 + 1 * d.val = d.val; omega)
  show k0_pay1 (F := Ideal) (iblk m c 0 t) (iblk m c 1 t) (iblk m c 2 t) (iblk m c 3 t) (ix3 z r d)
      = result m c (((cfg0.win 4).blk t).view.emb (ix3 z r d))
  rw [hemb]
  exact Tile.pay_layer (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t)
    (⟨t.val / 16, by omega⟩ : Fin 8) (fun r => (⟨t.val % 16 * 128 + r.val, by omega⟩ : Fin 2048))
    (fun r k => x_blk m c t _ _ 0 r k rfl rfl)
    (fun k h => gate_blk m c t _ 0 k h rfl)
    (fun k h => down_blk m c t _ 0 k h rfl)
    (fun h d => up_blk m c t _ 0 h d rfl)
    z r d

/-- An index of the result array is in point `t`'s block iff each coordinate is in the block's range on its axis. -/
theorem mem_blk (t : Fin cfg0.N) (i : S8x2048x2048.Idx) :
    i ∈ ((cfg0.win 4).blk t).view.set ↔ ∀ a : Fin 3, win0_4.index t a * S1x128x2048.size a ≤ (i a).val ∧ (i a).val < win0_4.index t a * S1x128x2048.size a + S1x128x2048.size a := by
  show i ∈ ((View.whole main_v3).slice (win0_4.rect t)).set ↔ _
  rw [View.set_slice_whole, Rect.mem_set_unit]
  exact Iff.rfl

/-- Every index of the result array lies in the block of the point 16·(expert) + (token / 128). -/
theorem cover (i : S8x2048x2048.Idx) : ∃ t : Fin cfg0.N, (cfg0.win 4).flush t = true ∧ i ∈ ((cfg0.win 4).blk t).view.set := by
  have hN : cfg0.N = 128 := N_0
  have hi0 : (i 0).val < 8 := (i 0).isLt
  have hi1 : (i 1).val < 2048 := (i 1).isLt
  have hi2 : (i 2).val < 2048 := (i 2).isLt
  refine ⟨⟨(i 0).val * 16 + (i 1).val / 128, by omega⟩, flush0_4 _, ?_⟩
  obtain ⟨o0, o1, o2, -⟩ := idx_facts ⟨(i 0).val * 16 + (i 1).val / 128, by omega⟩
  rw [mem_blk]
  intro a
  match a with
  | ⟨0, _⟩ =>
    show win0_4.index _ (0 : Fin 3) * 1 ≤ (i 0).val ∧ (i 0).val < win0_4.index _ (0 : Fin 3) * 1 + 1
    rw [o0]; show ((i 0).val * 16 + (i 1).val / 128) / 16 * 1 ≤ (i 0).val ∧ (i 0).val < ((i 0).val * 16 + (i 1).val / 128) / 16 * 1 + 1; omega
  | ⟨1, _⟩ =>
    show win0_4.index _ (1 : Fin 3) * 128 ≤ (i 1).val ∧ (i 1).val < win0_4.index _ (1 : Fin 3) * 128 + 128
    rw [o1]; show ((i 0).val * 16 + (i 1).val / 128) % 16 * 128 ≤ (i 1).val ∧ (i 1).val < ((i 0).val * 16 + (i 1).val / 128) % 16 * 128 + 128; omega
  | ⟨2, _⟩ =>
    show win0_4.index _ (2 : Fin 3) * 2048 ≤ (i 2).val ∧ (i 2).val < win0_4.index _ (2 : Fin 3) * 2048 + 2048
    rw [o2]; omega

/-- THE RESULT ARRAY after the run is the layer of the arguments. -/
theorem final (c : Dev nD) : (dats m 0 c).arrAt 4 cfg0.N = result m c :=
  (dats m 0 c).arrAt_eq_of_cover 4 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  A gated feed-forward layer applied expert by expert (8 experts, 2048 tokens each, 2048 features, 1408 hidden units),
  computed by a tiled kernel and by a plain reference: the two agree over the extended reals.

  Both compute, at (expert e, token t, feature d),
      Σ_h ( g(e,t,h) · σ(g(e,t,h)) · u(e,t,h) ) · W_up(e,h,d),    g = x · W_gate,  u = x · W_down  (contracting the input features),
  with σ(z) = 1 / (1 + exp(−z)) (Proof/SwiGLU.lean). The reference forms the three contractions over whole arrays and spells σ
  out with the literal 1.0 (Proof/RefLayer.lean). The kernel works tile by tile — 128 tokens of one expert against that
  expert's weights, the products taken into zero accumulators, the changes of float format being the identity over the
  extended reals (Proof/Tile.lean) — and its tiles fill the result array exactly (Proof/Whole.lean). The sums are the same
  sums in the same order, so no property of the inputs is used: the precondition is never opened. The idealized kernel is
  the kernel's own text read over the extended reals (nothing was rewritten), so that conjunct is trivial.
-/
import proofs.«113975_j64372969833101_2_alg».proof.Defs
import proofs.«113975_j64372969833101_2_alg».proof.Proof.Gen.Kernel
import proofs.«113975_j64372969833101_2_alg».proof.Proof.Gen.Kernel.Skeleton
import proofs.«113975_j64372969833101_2_alg».proof.Proof.Gen.Kernel.Launch
import proofs.«113975_j64372969833101_2_alg».proof.Proof.Gen.Kernel.Points
import proofs.«113975_j64372969833101_2_alg».proof.Proof.Gen.Kernel.Frame
import proofs.«113975_j64372969833101_2_alg».proof.Proof.Gen.KernelIdeal
import proofs.«113975_j64372969833101_2_alg».proof.Proof.Gen.KernelIdeal.Skeleton
import proofs.«113975_j64372969833101_2_alg».proof.Proof.Gen.KernelIdeal.Launch
import proofs.«113975_j64372969833101_2_alg».proof.Proof.Gen.KernelIdeal.Points
import proofs.«113975_j64372969833101_2_alg».proof.Proof.Gen.KernelIdeal.Frame
import proofs.«113975_j64372969833101_2_alg».proof.Proof.Gen.ReferenceIdeal
import proofs.«113975_j64372969833101_2_alg».proof.Proof.Gen.Pre_finite_inputs
import proofs.«113975_j64372969833101_2_alg».proof.Proof.Gen.KernelIdeal.Value
import proofs.«113975_j64372969833101_2_alg».proof.Proof.Gen.ReferenceIdeal.Run
import proofs.«113975_j64372969833101_2_alg».proof.Proof.Gen.ReferenceIdeal.Read
import proofs.«113975_j64372969833101_2_alg».proof.Proof.RefLayer
import proofs.«113975_j64372969833101_2_alg».proof.Proof.Whole
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the extended reals. -/
theorem preserves : Cert.preserves_Kernel_KernelIdeal := trivial

/-- From memories that agree on the four arguments both programs end with the layer of those arguments in their result
    arrays: the kernel by its tiles, the reference by its three contractions. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Layer.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
